-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x3x256 : Shape := ⟨3, ![1, 3, 256]⟩
abbrev S1x3x8192 : Shape := ⟨3, ![1, 3, 8192]⟩
abbrev S1x1x256 : Shape := ⟨3, ![1, 1, 256]⟩
abbrev S1x1x8192 : Shape := ⟨3, ![1, 1, 8192]⟩
abbrev S1x8192 : Shape := ⟨2, ![1, 8192]⟩
abbrev S3x256 : Shape := ⟨2, ![3, 256]⟩
abbrev S3x8192 : Shape := ⟨2, ![3, 8192]⟩
abbrev S8192 : Shape := ⟨1, ![8192]⟩
abbrev S256 : Shape := ⟨1, ![256]⟩
abbrev S1x256 : Shape := ⟨2, ![1, 256]⟩
abbrev S256x8192 : Shape := ⟨2, ![256, 8192]⟩
abbrev S256x1 : Shape := ⟨2, ![256, 1]⟩
abbrev S4x8192 : Shape := ⟨2, ![4, 8192]⟩
abbrev S_ : Shape := ⟨0, ![]⟩

abbrev nBuf : Space → Nat
  | .hbm => 17
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x3x8192, .f32⟩
  | .hbm, ⟨4, _⟩ => ⟨S4x1x8192, .f32⟩
  | .hbm, ⟨5, _⟩ => ⟨S4x1x8192, .f32⟩
  | .hbm, ⟨6, _⟩ => ⟨S4x8192, .f32⟩
  | .hbm, ⟨7, _⟩ => ⟨S4x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x3x256, .f32⟩
  | .local _ .vmem, ⟨1, _⟩ => ⟨S1x3x256, .f32⟩
  | .local _ .vmem, ⟨2, _⟩ => ⟨S1x3x8192, .f32⟩
  | .local _ .vmem, ⟨3, _⟩ => ⟨S1x3x8192, .f32⟩
  | .local _ .vmem, ⟨4, _⟩ => ⟨S1x1x256, .f32⟩
  | .local _ .vmem, ⟨5, _⟩ => ⟨S1x1x256, .f32⟩
  | .local _ .vmem, ⟨6, _⟩ => ⟨S1x1x8192, .f32⟩
  | .local _ .vmem, ⟨7, _⟩ => ⟨S1x1x8192, .f32⟩
  | .local _ .vmem, ⟨8, _⟩ => ⟨S1x8192, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_19 : BitVec 32 := 0#32
  let v34 : BitVec 1 := Scalar.cmpi .ne v33 c0_i32_19
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4x8192x3_S4x3x8192_0_2_1 : S4x8192x3.Transposes [0, 2, 1] S4x3x8192
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S3x8192_S8192 : S3x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S3x256_S256 : S3x256.Reduces [0] S256
  shapeCasts_S256_S1x256 : S256.ShapeCasts S1x256
  transposes_S1x256_p1_0_S256x1 : S1x256.Transposes [1, 0] S256x1
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  transposes_S256x1_p1_0_S1x256 : S256x1.Transposes [1, 0] S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reduces_S256x8192_S8192 : S256x8192.Reduces [0] S8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x1x8192_S4x8192 : S4x1x8192.ShapeCasts S4x8192
  reducesTo_S4x8192_S_d0_1 : S4x8192.ReducesTo [0, 1] S_
  h_S_ : 0 < S_.numel
  dot_S3x256_S3x8192_S256x8192_0_0_1_1_n_n_wf : DotDims.WF S3x256 S3x8192 S256x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256.size a ≤ S4x3x8192.size a
  hwx0_0 : ∀ i : grid0.Coords, EltTy.bits .f32 = 32 ∨ (Rect.block (s := S4x3x8192) S1x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x8192.size a
  hwx0_2 : ∀ i : grid0.Coords, EltTy.bits .f32 = 32 ∨ (Rect.block (s := S4x1x8192) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S3x256_S3x8192_S256x8192_0_0_1_1_n_n : DotDims S3x256 S3x8192 S256x8192 where
  lhsContracting := [0]
  rhsContracting := [0]
  lhsNonContracting := [1]
  rhsNonContracting := [1]
  lhsBatch := []
  rhsBatch := []
  wf := dot_S3x256_S3x8192_S256x8192_0_0_1_1_n_n_wf

abbrev win0_0 : Pipeline.Window sig grid0 :=
  Pipeline.Window.ofSpec (Memref.whole main_v0) S1x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KernelPieces.lean ====
/-
  What one grid step leaves behind, case by case.

  A step falls in one of three cases by its position n in its batch's 32 steps: the first (n = 0), a middle one,
  the last (n = 31).  It always writes the row of nearest-target distances of its tile to the first output.  It
  carries two rows between steps: `tn`, the squared lengths of the second cloud's points, computed at the first
  step and kept; and `acc`, the running minimum over the first cloud's tiles seen so far, started from +∞ at the
  first step.  At the last step `acc` is also handed to the second output.
  Here each buffer a case writes is read back as the body's arithmetic (the payload terms) of the blocks and rows
  the step was given:
    first step:   out₁ = rowMin(x0, x1, tn(x1));          tn := tn(x1);  acc := runMin(x0, x1, tn(x1), +∞ row)
    middle step:  out₁ = rowMin(x0, x1, tn);               tn kept;       acc := runMin(x0, x1, tn, acc)
    last step:    as a middle step, and  out₂ = the new acc, recast.
-/
import proofs.«151479_j3032246911459_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1x3x256 .f32) (h2 : a2.IsWhole) (a3 : Memref sig .tc .vmem S1x3x8192 .f32) (h3 : a3.IsWhole)
  (a4 : Memref sig .tc .vmem S1x1x256 .f32) (h4 : a4.IsWhole) (a5 : Memref sig .tc .vmem S1x1x8192 .f32) (h5 : a5.IsWhole)
  (a6 : Memref sig .tc .vmem S1x8192 .f32) (h6 : a6.IsWhole) (a7 : Memref sig .tc .vmem S1x8192 .f32) (h7 : a7.IsWhole)
  (x0 : Vec F S1x3x256 .f32) (x1 : Vec F S1x3x8192 .f32) (xs0 xs1 : Vec F S1x8192 .f32)

/-! ## The first step of a batch -/

theorem first_out (hc0 : cond0_0 i) (hc1 : ¬cond0_1 i) :
    out0_A_2 c i a2 h2 a3 h3 a4 h4 a5 h5 a6 h6 a7 h7 hc0 hc1 x0 x1 = k0_pay6 x0 x1 (k0_pay3 x1) := by
  unfold out0_A_2
  rw [View.read_writes_eq_canon _ _ _ (cover0_A_2 c i a2 h2 a3 h3 a4 h4 a5 h5 a6 h6 a7 h7 hc0 hc1 x0 x1)]
  unfold kernelRun0_A
  dsimp only
  sl_unfold_words
  rw [View.canon_unit_zero (S := S1x1x256) hz3]
  simp only [View.readCov_unit_zero (S := S1x8192) _ hz2, View.readAt_eq_ld, h2.read_unread, h3.read_unread,
    View.ld_unit_zero (S := S1x3x256) hz3, View.ld_unit_zero (S := S1x3x8192) hz3]

theorem first_acc (hc0 : cond0_0 i) (hc1 : ¬cond0_1 i) :
    sout0_A_0 c i a2 h2 a3 h3 a4 h4 a5 h5 a6 h6 a7 h7 hc0 hc1 x0 x1 = k0_pay7 x0 x1 (k0_pay3 x1) k0_pay4 := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S1x8192) hz2]
  simp only [View.readCov_unit_zero (S := S1x8192) _ hz2, View.readAt_eq_ld, h2.read_unread, h3.read_unread,
    View.ld_unit_zero (S := S1x3x256) hz3, View.ld_unit_zero (S := S1x3x8192) hz3]

theorem first_tn (hc0 : cond0_0 i) (hc1 : ¬cond0_1 i) :
    sout0_A_1 c i a2 h2 a3 h3 a4 h4 a5 h5 a6 h6 a7 h7 hc0 hc1 x0 x1 = k0_pay3 x1 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_unit_zero (S := S1x8192) hz2]
  simp only [View.readAt_eq_ld, h3.read_unread, View.ld_unit_zero (S := S1x3x8192) hz3]

/-! ## A middle step -/

theorem middle_out (hc0 : ¬cond0_0 i) (hc1 : ¬cond0_1 i) :
    out0_B_2 c i a2 h2 a3 h3 a4 h4 a5 h5 a6 h6 a7 h7 hc0 hc1 x0 x1 xs0 xs1 = k0_pay6 x0 x1 xs1 := by
  unfold out0_B_2
  rw [View.read_writes_eq_canon _ _ _ (cover0_B_2 c i a2 h2 a3 h3 a4 h4 a5 h5 a6 h6 a7 h7 hc0 hc1 x0 x1 xs0 xs1)]
  unfold kernelRun0_B
  dsimp only
  sl_unfold_words
  rw [View.canon_unit_zero (S := S1x1x256) hz3]
  simp only [View.readAt_eq_ld, h2.read_unread, h3.read_unread, h6.read_unread, h7.read_unread,
    View.ld_unit_zero (S := S1x3x256) hz3, View.ld_unit_zero (S := S1x3x8192) hz3, View.ld_unit_zero (S := S1x8192) hz2]

theorem middle_acc (hc0 : ¬cond0_0 i) (hc1 : ¬cond0_1 i) :
    sout0_B_0 c i a2 h2 a3 h3 a4 h4 a5 h5 a6 h6 a7 h7 hc0 hc1 x0 x1 xs0 xs1 = k0_pay7 x0 x1 xs1 xs0 := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero (S := S1x8192) hz2]
  simp only [View.readAt_eq_ld, h2.read_unread, h3.read_unread, h6.read_unread, h7.read_unread,
    View.ld_unit_zero (S := S1x3x256) hz3, View.ld_unit_zero (S := S1x3x8192) hz3, View.ld_unit_zero (S := S1x8192) hz2]

/-! ## The last step of a batch -/

theorem last_out (hc0 : ¬cond0_0 i) (hc1 : cond0_1 i) :
    out0_C_2 c i a2 h2 a3 h3 a4 h4 a5 h5 a6 h6 a7 h7 hc0 hc1 x0 x1 xs0 xs1 = k0_pay6 x0 x1 xs1 := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero (S := S1x1x256) hz3]
  simp only [View.readAt_eq_ld, h2.read_unread, h3.read_unread, h6.read_unread, h7.read_unread,
    View.ld_unit_zero (S := S1x3x256) hz3, View.ld_unit_zero (S := S1x3x8192) hz3, View.ld_unit_zero (S := S1x8192) hz2]

theorem last_acc (hc0 : ¬cond0_0 i) (hc1 : cond0_1 i) :
    sout0_C_0 c i a2 h2 a3 h3 a4 h4 a5 h5 a6 h6 a7 h7 hc0 hc1 x0 x1 xs0 xs1 = k0_pay7 x0 x1 xs1 xs0 := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero (S := S1x8192) hz2]
  simp only [View.readAt_eq_ld, h2.read_unread, h3.read_unread, h6.read_unread, h7.read_unread,
    View.ld_unit_zero (S := S1x3x256) hz3, View.ld_unit_zero (S := S1x3x8192) hz3, View.ld_unit_zero (S := S1x8192) hz2]

theorem last_handed (hc0 : ¬cond0_0 i) (hc1 : cond0_1 i) :
    out0_C_3 c i a2 h2 a3 h3 a4 h4 a5 h5 a6 h6 a7 h7 hc0 hc1 x0 x1 xs0 xs1 = k0_pay1 (k0_pay7 x0 x1 xs1 xs0) := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero (S := S1x1x8192) hz3]
  simp only [View.readCov_unit_zero (S := S1x8192) _ hz2, View.readAt_eq_ld, h2.read_unread, h3.read_unread, h6.read_unread, h7.read_unread,
    View.ld_unit_zero (S := S1x3x256) hz3, View.ld_unit_zero (S := S1x3x8192) hz3, View.ld_unit_zero (S := S1x8192) hz2]

end Cert.KernelIdeal.Pieces

end
-- ==== Proof.LibRunningMin.lean ====
/-
  Minima on the extended reals, taken in pieces.

  A minimum over a finite index set is written  s.inf f  (the infimum of the empty set is +∞).  Two facts:
    • a fold of a binary operation that IS  min,  started from a value  b,  is  min b (s.inf f);  from +∞ it is
      s.inf f  itself, whatever order the fold takes the indices in;
    • a minimum over  Fin N  can be accumulated tile by tile: if  a  is the minimum over the indices below
      T·k  and  l  the minimum over tile  k  (the indices  T·k + j,  j < T),  then  min a l  is the minimum over
      the indices below  T·(k+1);  below  T·0  there is nothing (the minimum is +∞), and the indices below  N
      are all of them.
  Mathlib imports only.
-/
import Mathlib.Data.EReal.Basic
import Mathlib.Order.CompleteLattice.Finset
import Mathlib.Data.Finset.Lattice.Fold
import Mathlib.Data.Fintype.Basic

namespace LibRunningMin

/-- A fold of an operation that is `min`, from `b`: the minimum of `b` and of all the values. -/
theorem fold_eq_min_inf {ι : Type} (op : EReal → EReal → EReal) [Std.Commutative op] [Std.Associative op]
    (hop : ∀ x y, op x y = min x y) (b : EReal) (s : Finset ι) (f : ι → EReal) :
    s.fold op b f = min b (s.inf f) := by
  classical
  induction s using Finset.induction_on with
  | empty => simp
  | insert a s ha ih =>
    rw [Finset.fold_insert ha, Finset.inf_insert, ih, hop]
    exact min_left_comm _ _ _

/-- From +∞ the fold is the minimum of the values. -/
theorem fold_top_eq_inf {ι : Type} (op : EReal → EReal → EReal) [Std.Commutative op] [Std.Associative op]
    (hop : ∀ x y, op x y = min x y) (s : Finset ι) (f : ι → EReal) :
    s.fold op ⊤ f = s.inf f := by
  rw [fold_eq_min_inf op hop, min_eq_right le_top]

/-- The indices of `Fin N` below a bound. -/
def below (N b : ℕ) : Finset (Fin N) := Finset.univ.filter fun n => n.val < b

theorem mem_below {N b : ℕ} (n : Fin N) : n ∈ below N b ↔ n.val < b := by
  simp [below]

/-- Below zero there is nothing: the minimum is +∞. -/
theorem inf_below_zero {N : ℕ} (f : Fin N → EReal) : (below N 0).inf f = ⊤ := by
  have : below N 0 = ∅ := by
    ext n; simp [below]
  rw [this, Finset.inf_empty]

/-- Below `N` is everything. -/
theorem inf_below_all {N b : ℕ} (hb : N ≤ b) (f : Fin N → EReal) : (below N b).inf f = Finset.univ.inf f := by
  have : below N b = Finset.univ := by
    ext n; simp only [mem_below, Finset.mem_univ, iff_true]; exact lt_of_lt_of_le n.isLt hb
  rw [this]

/-- ONE TILE MORE: the minimum below `T·k` joined with the minimum over tile `k` is the minimum below `T·(k+1)`. -/
theorem min_inf_tile {N T : ℕ} (f : Fin N → EReal) (k : ℕ) (hk : T * (k + 1) ≤ N) :
    min ((below N (T * k)).inf f)
        (Finset.univ.inf fun j : Fin T => f ⟨T * k + j.val, by
          have := j.isLt; have : T * k + j.val < T * k + T := by omega
          have e : T * (k + 1) = T * k + T := by ring
          omega⟩)
      = (below N (T * (k + 1))).inf f := by
  have e : T * (k + 1) = T * k + T := by ring
  apply le_antisymm
  · refine Finset.le_inf fun n hn => ?_
    rw [mem_below] at hn
    by_cases h : n.val < T * k
    · exact (min_le_left _ _).trans (Finset.inf_le ((mem_below n).2 h))
    · have hj : n.val - T * k < T := by omega
      refine (min_le_right _ _).trans ((Finset.inf_le (Finset.mem_univ (⟨n.val - T * k, hj⟩ : Fin T))).trans (le_of_eq ?_))
      exact congrArg f (Fin.ext (by show T * k + (n.val - T * k) = n.val; omega))
  · refine le_min (Finset.le_inf fun n hn => Finset.inf_le ((mem_below n).2 ?_)) (Finset.le_inf fun j _ => Finset.inf_le ((mem_below _).2 ?_))
    · have := (mem_below n).1 hn; omega
    · have := j.isLt; show T * k + j.val < T * (k + 1); omega

end LibRunningMin
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayloads.lean ====
/-
  The kernel body's arithmetic, read entry by entry at the exact values.

  One grid step sees a tile of 256 points of the first cloud, laid out [1, 3, 256] (coordinate d, point j), the
  whole second cloud of its batch, laid out [1, 3, 8192] (coordinate d, point m), a row `tn` of 8192 numbers
  (the squared lengths of the second cloud's points, kept from the batch's first step) and a row `acc` of 8192
  running minima.  Entry by entry:
    • the squared-length row of a block is  Σ_d x(d, ·)²;
    • the distance tile at (j, m) is  (Σ_d x0(d, j)² + tn(m)) + Σ_d (x0(d, j) · c) · x1(d, m),  c the word of −2
      (a product of a [3, 256] by a [3, 8192] matrix contracting the coordinate axis of both, into zero);
    • the row written to the first output is, at j, the minimum over m of the tile's row j;
    • the new running minimum is, at m,  min(acc(m), minimum over j of the tile's column m);
    • the row started at a batch's first step is +∞ everywhere.
  A minimum over an axis taken from the +∞ word is a `Finset.inf`.
-/
import proofs.«151479_j3032246911459_2_alg».proof.Proof.Gen.KernelIdeal.Skeleton
import proofs.«151479_j3032246911459_2_alg».proof.Proof.LibRunningMin
import proofs.«151479_j3032246911459_2_alg».proof.Proof.LibColumn
import proofs.«151479_j3032246911459_2_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## Reductions over one axis, at the exact values -/

/-- Row `k` put back into the reduced index `(c)` of a `[r, c]` array reduced over its rows is `(k, c)`. -/
theorem lift_rows {r n : Nat} (h : (⟨2, ![r, n]⟩ : Shape).Reduces [0] (⟨1, ![n]⟩ : Shape)) (c : Fin n)
    (k : Fin ((⟨2, ![r, n]⟩ : Shape).size 0)) : h.lift (ix1 c) k = ix2 (⟨k.val, k.isLt⟩ : Fin r) c := by
  funext a; apply Fin.ext
  fin_cases a <;> rfl

/-- Column `k` put back into the reduced index `(r)` of a `[r, c]` array reduced over its columns is `(r, k)`. -/
theorem lift_cols {r n : Nat} (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext a; apply Fin.ext
  fin_cases a <;> rfl

/-- The f32 word with all exponent bits set and a zero fraction is +∞. -/
theorem top_word : Ideal.ofBits .f32 0x7F800000#32 = (⊤ : EReal) := by
  simp [Ideal.ofBits, Ideal.ieee]

/-- A minimum-reduction over one axis from the +∞ word: the minimum of the entries along that axis. -/
theorem minReduce_apply {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = Finset.univ.inf fun k : Fin (s.size a) => src (h.lift j k) := by
  rw [multiReduction_minimumf_eq_fold, h.fold_filter_drop_single _ _ src j]
  show Finset.fold FloatOps.minimumf (Ideal.ofBits .f32 0x7F800000#32) (src ∘ h.lift j) Finset.univ = _
  rw [top_word]
  exact LibRunningMin.fold_top_eq_inf (FloatOps.minimumf (F := Ideal) (φ := .f32)) (fun _ _ => rfl) _ _

/-- The minimum over the columns of a `[r, n]` array, at row `p`. -/
theorem minOverCols_apply {r n : Nat} (src : FVec Ideal ⟨2, ![r, n]⟩ .f32) (h : (⟨2, ![r, n]⟩ : Shape).Reduces [1] (⟨1, ![r]⟩ : Shape))
    (hφ : FKind.Formats .f32) (hacc : (0x7F800000#32 : BitVec 32) = FKind.minimumf.neutral .f32 hφ) (p : Fin r) :
    multiReduction .minimumf [1] ⟨1, ![r]⟩ src 0x7F800000#32 h hφ hacc (ix1 p)
      = Finset.univ.inf fun k : Fin n => src (ix2 p k) := by
  refine (minReduce_apply src h hφ hacc (ix1 p)).trans ?_
  show (Finset.univ.inf fun k : Fin n => src (h.lift (ix1 p) k)) = _
  exact Finset.inf_congr rfl fun k _ => congrArg src (lift_cols h p k)

/-- The minimum over the rows of a `[r, n]` array, at column `c`. -/
theorem minOverRows_apply {r n : Nat} (src : FVec Ideal ⟨2, ![r, n]⟩ .f32) (h : (⟨2, ![r, n]⟩ : Shape).Reduces [0] (⟨1, ![n]⟩ : Shape))
    (hφ : FKind.Formats .f32) (hacc : (0x7F800000#32 : BitVec 32) = FKind.minimumf.neutral .f32 hφ) (c : Fin n) :
    multiReduction .minimumf [0] ⟨1, ![n]⟩ src 0x7F800000#32 h hφ hacc (ix1 c)
      = Finset.univ.inf fun k : Fin r => src (ix2 k c) := by
  refine (minReduce_apply src h hφ hacc (ix1 c)).trans ?_
  show (Finset.univ.inf fun k : Fin r => src (h.lift (ix1 c) k)) = _
  exact Finset.inf_congr rfl fun k _ => congrArg src (lift_rows h c k)

/-- The sum over the rows of a `[r, n]` array from the zero word, at column `c`. -/
theorem sumOverRows_apply {r n : Nat} (src : FVec Ideal ⟨2, ![r, n]⟩ .f32) (h : (⟨2, ![r, n]⟩ : Shape).Reduces [0] (⟨1, ![n]⟩ : Shape))
    (hφ : FKind.Formats .f32) (hacc : (0x00000000#32 : BitVec 32) = FKind.add.neutral .f32 hφ) (c : Fin n) :
    multiReduction .add [0] ⟨1, ![n]⟩ src 0x00000000#32 h hφ hacc (ix1 c) = ∑ k : Fin r, src (ix2 k c) := by
  refine (Ideal.multiReduction_add_single src _ h hφ hacc (ix1 c)).trans ?_
  show (∑ k : Fin r, src (h.lift (ix1 c) k)) = _
  exact Finset.sum_congr rfl fun k _ => congrArg src (lift_rows h c k)

/-! ## The squared lengths of a block's points -/

/-- A block `[1, 3, K]` recast to `[3, K]`, squared entry by entry and summed over the coordinate axis: at point `j`,
    the sum of the squares of its three coordinates. -/
theorem sqRow_apply {K : Nat} (x : FVec Ideal ⟨3, ![1, 3, K]⟩ .f32)
    (hc : (⟨3, ![1, 3, K]⟩ : Shape).ShapeCasts ⟨2, ![3, K]⟩) (h : (⟨2, ![3, K]⟩ : Shape).Reduces [0] (⟨1, ![K]⟩ : Shape))
    (hφ : FKind.Formats .f32) (hacc : (0x00000000#32 : BitVec 32) = FKind.add.neutral .f32 hφ) (j : Fin K) :
    multiReduction .add [0] ⟨1, ![K]⟩ (mulf (shapeCast ⟨2, ![3, K]⟩ x hc) (shapeCast ⟨2, ![3, K]⟩ x hc)) 0x00000000#32 h hφ hacc (ix1 j)
      = ∑ d : Fin 3, x (ix3 (0 : Fin 1) d j) * x (ix3 (0 : Fin 1) d j) := by
  refine (sumOverRows_apply _ h hφ hacc j).trans ?_
  refine Finset.sum_congr rfl fun d _ => ?_
  show shapeCast ⟨2, ![3, K]⟩ x hc (ix2 d j) * shapeCast ⟨2, ![3, K]⟩ x hc (ix2 d j) = _
  rw [shapeCast_1ab_ab_apply]

/-! ## The product contracting the coordinate axis of both factors -/

/-- The left factor's index on its kept axis is the result's row. -/
theorem lhs_kept (i : S256x8192.Idx) (q : dot_S3x256_S3x8192_S256x8192_0_0_1_1_n_n.contr.Idx) : (dot_S3x256_S3x8192_S256x8192_0_0_1_1_n_n.lhsIdx i q 1).val = (i 0).val := by
  unfold DotDims.lhsIdx
  rw [dif_neg (show ¬(1 : Fin S3x256.rank) ∈ dot_S3x256_S3x8192_S256x8192_0_0_1_1_n_n.lhsBatch by decide), dif_pos (show (1 : Fin S3x256.rank) ∈ dot_S3x256_S3x8192_S256x8192_0_0_1_1_n_n.lhsNonContracting by decide)]
  rfl

/-- The right factor's index on its kept axis is the result's column. -/
theorem rhs_kept (i : S256x8192.Idx) (q : dot_S3x256_S3x8192_S256x8192_0_0_1_1_n_n.contr.Idx) : (dot_S3x256_S3x8192_S256x8192_0_0_1_1_n_n.rhsIdx i q 1).val = (i 1).val := by
  unfold DotDims.rhsIdx
  rw [dif_neg (show ¬(1 : Fin S3x8192.rank) ∈ dot_S3x256_S3x8192_S256x8192_0_0_1_1_n_n.rhsBatch by decide), dif_pos (show (1 : Fin S3x8192.rank) ∈ dot_S3x256_S3x8192_S256x8192_0_0_1_1_n_n.rhsNonContracting by decide)]
  rfl

/-- `[3, 256] × [3, 8192] → [256, 8192]` contracting axis 0 of both, into zero: at (j, m) the sum over the
    coordinate d of l(d, j) · r(d, m). -/
theorem cross_apply (l : FVec Ideal S3x256 .f32) (r : FVec Ideal S3x8192 .f32) (j : Fin 256) (mm : Fin 8192) :
    matmul dot_S3x256_S3x8192_S256x8192_0_0_1_1_n_n (some .fp32) l r (constant S256x8192 .f32 0x00000000#32) (ix2 j mm)
      = ∑ d : Fin 3, l (ix2 d j) * r (ix2 d mm) := by
  simp only [matmul]
  rw [Ideal.matmul_constant_zero_apply, ← Equiv.sum_comp (ValueIdx.contrEquiv1 dot_S3x256_S3x8192_S256x8192_0_0_1_1_n_n 3 rfl rfl).symm]
  refine Finset.sum_congr rfl fun k _ => ?_
  have hk := ValueIdx.contrEquiv1_symm_val dot_S3x256_S3x8192_S256x8192_0_0_1_1_n_n 3 rfl rfl k
  have el : dot_S3x256_S3x8192_S256x8192_0_0_1_1_n_n.lhsIdx (ix2 j mm) ((ValueIdx.contrEquiv1 dot_S3x256_S3x8192_S256x8192_0_0_1_1_n_n 3 rfl rfl).symm k) = ix2 k j := funext fun a => Fin.ext (by
    match a with
    | ⟨0, _⟩ => exact (dot_S3x256_S3x8192_S256x8192_0_0_1_1_n_n.lhsIdx_val_of_single rfl _ _).trans hk
    | ⟨1, _⟩ => exact lhs_kept _ _)
  have er : dot_S3x256_S3x8192_S256x8192_0_0_1_1_n_n.rhsIdx (ix2 j mm) ((ValueIdx.contrEquiv1 dot_S3x256_S3x8192_S256x8192_0_0_1_1_n_n 3 rfl rfl).symm k) = ix2 k mm := funext fun a => Fin.ext (by
    match a with
    | ⟨0, _⟩ => exact (dot_S3x256_S3x8192_S256x8192_0_0_1_1_n_n.rhsIdx_val_of_single rfl _ _).trans hk
    | ⟨1, _⟩ => exact rhs_kept _ _)
  rw [el, er]

/-! ## The payloads -/

/-- The squared-length row of the second cloud's block, at point m. -/
theorem tnRow_apply (x1 : FVec Ideal S1x3x8192 .f32) (mm : Fin 8192) :
    k0_pay3 (F := Ideal) x1 (ix2 (0 : Fin 1) mm) = ∑ d : Fin 3, x1 (ix3 (0 : Fin 1) d mm) * x1 (ix3 (0 : Fin 1) d mm) := by
  unfold k0_pay3 k0_pay2
  dsimp only
  rw [shapeCast_self]
  refine (shapeCast_a_1a_apply _ shapeCasts_S8192_S1x8192 (0 : Fin 1) mm).trans ?_
  exact sqRow_apply x1 shapeCasts_S1x3x8192_S3x8192 reduces_S3x8192_S8192 _ _ mm

/-- The row a batch's first step starts the running minimum from: +∞ at every point. -/
theorem topRow_apply (y : S1x8192.Idx) : k0_pay4 (F := Ideal) y = (⊤ : EReal) := by
  unfold k0_pay4
  rw [shapeCast_self]
  exact top_word

/-- The distance tile at (j, m). -/
theorem tile_apply (x0 : FVec Ideal S1x3x256 .f32) (x1 : FVec Ideal S1x3x8192 .f32) (v14 : FVec Ideal S1x8192 .f32)
    (j : Fin 256) (mm : Fin 8192) :
    k0_pay5 (F := Ideal) x0 x1 v14 (ix2 j mm)
      = ((∑ d : Fin 3, x0 (ix3 (0 : Fin 1) d j) * x0 (ix3 (0 : Fin 1) d j)) + v14 (ix2 (0 : Fin 1) mm))
        + ∑ d : Fin 3, (x0 (ix3 (0 : Fin 1) d j) * Ideal.ofBits .f32 0xC0000000#32) * x1 (ix3 (0 : Fin 1) d mm) := by
  unfold k0_pay5 k0_pay2
  dsimp only
  rw [addf_apply, addf_apply]
  refine congrArg₂ (· + ·) (congrArg₂ (· + ·) ?_ ?_) ?_
  · refine (broadcastTo_a1_ab_apply _ broadcasts_S256x1_S256x8192 j mm).trans ?_
    refine (transpose_ix2_apply _ transposes_S1x256_p1_0_S256x1 j (0 : Fin 1)).trans ?_
    refine (shapeCast_a_1a_apply _ shapeCasts_S256_S1x256 (0 : Fin 1) j).trans ?_
    exact sqRow_apply x0 shapeCasts_S1x3x256_S3x256 reduces_S3x256_S256 _ _ j
  · exact broadcastTo_1b_ab_apply v14 broadcasts_S1x8192_S256x8192 j mm
  · refine (cross_apply _ _ j mm).trans ?_
    refine Finset.sum_congr rfl fun d _ => ?_
    show (shapeCast S3x256 x0 shapeCasts_S1x3x256_S3x256 (ix2 d j) * Ideal.ofBits .f32 0xC0000000#32) * shapeCast S3x8192 x1 shapeCasts_S1x3x8192_S3x8192 (ix2 d mm) = _
    rw [shapeCast_1ab_ab_apply, shapeCast_1ab_ab_apply]

/-- The row written to the first output: at j, the minimum of the tile's row j. -/
theorem rowMin_apply (x0 : FVec Ideal S1x3x256 .f32) (x1 : FVec Ideal S1x3x8192 .f32) (v14 : FVec Ideal S1x8192 .f32)
    (j : Fin 256) :
    k0_pay6 (F := Ideal) x0 x1 v14 (ix3 (0 : Fin 1) (0 : Fin 1) j)
      = Finset.univ.inf fun mm : Fin 8192 => k0_pay5 (F := Ideal) x0 x1 v14 (ix2 j mm) := by
  unfold k0_pay6
  dsimp only
  refine (shapeCast_ab_1ab_apply _ shapeCasts_S1x256_S1x1x256 (0 : Fin 1) (0 : Fin 1) j).trans ?_
  refine (transpose_ix2_apply _ transposes_S256x1_p1_0_S1x256 (0 : Fin 1) j).trans ?_
  refine (shapeCast_a_a1_apply _ shapeCasts_S256_S256x1 j (0 : Fin 1)).trans ?_
  exact minOverCols_apply (k0_pay5 (F := Ideal) x0 x1 v14) reduces_S256x8192_S256 _ _ j

/-- The new running minimum: at m, the old one joined with the minimum of the tile's column m. -/
theorem runMin_apply (x0 : FVec Ideal S1x3x256 .f32) (x1 : FVec Ideal S1x3x8192 .f32) (v14 v27 : FVec Ideal S1x8192 .f32)
    (mm : Fin 8192) :
    k0_pay7 (F := Ideal) x0 x1 v14 v27 (ix2 (0 : Fin 1) mm)
      = min (v27 (ix2 (0 : Fin 1) mm)) (Finset.univ.inf fun j : Fin 256 => k0_pay5 (F := Ideal) x0 x1 v14 (ix2 j mm)) := by
  unfold k0_pay7
  dsimp only
  rw [shapeCast_self, minimumf_apply]
  refine congrArg (min (v27 (ix2 (0 : Fin 1) mm))) ?_
  refine (shapeCast_a_1a_apply _ shapeCasts_S8192_S1x8192 (0 : Fin 1) mm).trans ?_
  exact minOverRows_apply (k0_pay5 (F := Ideal) x0 x1 v14) reduces_S256x8192_S8192 _ _ mm

/-- The row handed to the second output is the running minimum, recast. -/
theorem outRow_apply (v35 : FVec Ideal S1x8192 .f32) (mm : Fin 8192) :
    k0_pay1 (F := Ideal) v35 (ix3 (0 : Fin 1) (0 : Fin 1) mm) = v35 (ix2 (0 : Fin 1) mm) := by
  unfold k0_pay1
  exact shapeCast_ab_1ab_apply v35 shapeCasts_S1x8192_S1x1x8192 (0 : Fin 1) (0 : Fin 1) mm

end Cert.KernelIdeal.Payload

end
-- ==== Proof.Spec.lean ====
/-
  The chamfer distance of two clouds of 8192 points of ℝ³, four batches of them, over the extended reals.

  For batch b, point n of the first cloud (p) and point m of the second (t), the squared distance is expanded as
  |p|² + |t|² − 2⟨p, t⟩.  Two arrangements of that expansion occur:
    • `dist`:     (|p|² + |t|²) + Σ_d (p_d · c) · t_d   with the factor  c = −2  folded into the first point's
                    coordinates before the inner product;
    • `distRef`:  ((0 + |p|²) + (0 + |t|²)) − c' · Σ_d p_d · t_d   with  c' = 2  applied to the whole inner product.
  They agree where every coordinate is a real number (Algebra.lean); at infinite coordinates they need not.
  The result is the mean over (b, n) of the distance from p's point n to its nearest point of t, plus the mean
  over (b, m) of the distance from t's point m to its nearest point of p; a minimum over an axis is `Finset.inf`
  (a minimum started from +∞).  The constants are kept as the f32 words that denote them.
-/
import Idealize.ShloMosaic.PureOps
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The clouds: [batch, point, coordinate]. -/
abbrev Pts : Shape := ⟨3, ![4, 8192, 3]⟩
/-- One number per (batch, point). -/
abbrev Rows : Shape := ⟨2, ![4, 8192]⟩
/-- One number. -/
abbrev Sc : Shape := ⟨0, ![]⟩

/-- The f32 word of −2, as an extended real. -/
abbrev cNeg2 : EReal := Ideal.ofBits .f32 0xC0000000#32
/-- The f32 word of 2. -/
abbrev cTwo : EReal := Ideal.ofBits .f32 0x40000000#32
/-- The f32 word of 0. -/
abbrev cZero : EReal := Ideal.ofBits .f32 0x00000000#32

/-- |x_{b,n}|²: the sum of the squares of the three coordinates. -/
def sq (x : Pts.Idx → EReal) (b : Fin 4) (n : Fin 8192) : EReal :=
  ∑ d : Fin 3, x (ix3 b n d) * x (ix3 b n d)

/-- The squared distance with −2 folded into p's coordinates. -/
def dist (p t : Pts.Idx → EReal) (b : Fin 4) (n m : Fin 8192) : EReal :=
  (sq p b n + sq t b m) + ∑ d : Fin 3, (p (ix3 b n d) * cNeg2) * t (ix3 b m d)

/-- The squared distance with 2 applied to the inner product, each squared length a sum started from 0. -/
def distRef (p t : Pts.Idx → EReal) (b : Fin 4) (n m : Fin 8192) : EReal :=
  ((cZero + sq p b n) + (cZero + sq t b m)) - cTwo * ∑ d : Fin 3, p (ix3 b n d) * t (ix3 b m d)

/-- From p's point n to the nearest point of t. -/
def toTarget (p t : Pts.Idx → EReal) (b : Fin 4) (n : Fin 8192) : EReal :=
  Finset.univ.inf fun m : Fin 8192 => dist p t b n m

/-- From t's point m to the nearest point of p. -/
def toPred (p t : Pts.Idx → EReal) (b : Fin 4) (m : Fin 8192) : EReal :=
  Finset.univ.inf fun n : Fin 8192 => dist p t b n m

/-- A function of (batch, point) as an array [4, 8192]. -/
def rows (g : Fin 4 → Fin 8192 → EReal) : Rows.Idx → EReal :=
  fun q => g ⟨(q 0).val, (q 0).isLt⟩ ⟨(q 1).val, (q 1).isLt⟩

theorem rows_apply (g : Fin 4 → Fin 8192 → EReal) (b : Fin 4) (n : Fin 8192) : rows g (ix2 b n) = g b n := rfl

/-- The sum of two means over [4, 8192]: each a sum from 0 over both axes divided by 32768 (the word 0x47000000). -/
def meanPlusMean (A B : FVec Ideal Rows .f32) (h : Rows.ReducesTo [0, 1] Sc) (h0 : 0 < Sc.numel) : FVec Ideal Sc .f32 :=
  addf (Host.divf (Host.reduceAdd A (constant Sc .f32 0x00000000#32) h h0) (constant Sc .f32 0x47000000#32))
       (Host.divf (Host.reduceAdd B (constant Sc .f32 0x00000000#32) h h0) (constant Sc .f32 0x47000000#32))

/-- THE RESULT: mean nearest-target distance plus mean nearest-pred distance. -/
def chamfer (p t : Pts.Idx → EReal) (h : Rows.ReducesTo [0, 1] Sc) (h0 : 0 < Sc.numel) : FVec Ideal Sc .f32 :=
  meanPlusMean (rows (toTarget p t)) (rows (toPred p t)) h h0

end Cert.Chamfer

end
-- ==== Proof.KernelStep.lean ====
/-
  One grid step, in terms of the two clouds.

  The step at batch b and tile k is given x0, the tile's 256 points (x0(0, d, j) = p(b, 256·k + j, d)), x1, the
  batch's whole second cloud (x1(0, d, m) = t(b, m, d)), the row `tn` with tn(m) = |t_{b,m}|², and the row
  `acc` of minima over the points of p before the tile (those below 256·k).  Then
    • its distance tile at (j, m) is  dist p t b (256·k + j) m;
    • the row it writes to the first output is, at j, the distance from p's point 256·k + j to its nearest point
      of t (the minimum over all m);
    • its new running minimum is, at m, the minimum over the points of p below 256·(k + 1);
    • the row of squared lengths it computes from x1 at m is |t_{b,m}|².
-/
import proofs.«151479_j3032246911459_2_alg».proof.Proof.KernelPayloads
import proofs.«151479_j3032246911459_2_alg».proof.Proof.Spec
import proofs.«151479_j3032246911459_2_alg».proof.Proof.LibRunningMin

noncomputable section

namespace Cert.KernelIdeal.Step

open Idealize.ShloMosaic Idealize.ShloMosaic.ValueIdx Cert.KernelIdeal Cert.KernelIdeal.Gen Cert.Chamfer
open Cert.KernelIdeal.Payload

/-- Point j of tile k. -/
def pt (k : Fin 32) (j : Fin 256) : Fin 8192 := ⟨256 * k.val + j.val, by have := k.isLt; have := j.isLt; omega⟩

variable (p t : Pts.Idx → EReal) (b : Fin 4) (k : Fin 32)
  (x0 : FVec Ideal S1x3x256 .f32) (x1 : FVec Ideal S1x3x8192 .f32) (tn acc : FVec Ideal S1x8192 .f32)

/-- The squared lengths computed from the second cloud's block. -/
theorem tn_spec (hx1 : ∀ (d : Fin 3) (mm : Fin 8192), x1 (ix3 (0 : Fin 1) d mm) = t (ix3 b mm d)) (mm : Fin 8192) :
    k0_pay3 (F := Ideal) x1 (ix2 (0 : Fin 1) mm) = sq t b mm := by
  rw [tnRow_apply]
  unfold Cert.Chamfer.sq
  exact Finset.sum_congr rfl fun d _ => by rw [hx1]

/-- The distance tile. -/
theorem tile_spec (hx0 : ∀ (d : Fin 3) (j : Fin 256), x0 (ix3 (0 : Fin 1) d j) = p (ix3 b (pt k j) d))
    (hx1 : ∀ (d : Fin 3) (mm : Fin 8192), x1 (ix3 (0 : Fin 1) d mm) = t (ix3 b mm d))
    (htn : ∀ mm : Fin 8192, tn (ix2 (0 : Fin 1) mm) = sq t b mm) (j : Fin 256) (mm : Fin 8192) :
    k0_pay5 (F := Ideal) x0 x1 tn (ix2 j mm) = dist p t b (pt k j) mm := by
  rw [tile_apply, htn]
  unfold Cert.Chamfer.dist Cert.Chamfer.sq
  refine congrArg₂ (· + ·) (congrArg (· + _) ?_) ?_
  · exact Finset.sum_congr rfl fun d _ => by rw [hx0]
  · exact Finset.sum_congr rfl fun d _ => by rw [hx0, hx1]

/-- The row written to the first output: nearest-target distances of the tile's points. -/
theorem rowMin_spec (hx0 : ∀ (d : Fin 3) (j : Fin 256), x0 (ix3 (0 : Fin 1) d j) = p (ix3 b (pt k j) d))
    (hx1 : ∀ (d : Fin 3) (mm : Fin 8192), x1 (ix3 (0 : Fin 1) d mm) = t (ix3 b mm d))
    (htn : ∀ mm : Fin 8192, tn (ix2 (0 : Fin 1) mm) = sq t b mm) (j : Fin 256) :
    k0_pay6 (F := Ideal) x0 x1 tn (ix3 (0 : Fin 1) (0 : Fin 1) j) = toTarget p t b (pt k j) := by
  rw [rowMin_apply]
  unfold Cert.Chamfer.toTarget
  exact Finset.inf_congr rfl fun mm _ => tile_spec p t b k x0 x1 tn hx0 hx1 htn j mm

/-- The new running minimum: over the points of p below the end of the tile. -/
theorem runMin_spec (hx0 : ∀ (d : Fin 3) (j : Fin 256), x0 (ix3 (0 : Fin 1) d j) = p (ix3 b (pt k j) d))
    (hx1 : ∀ (d : Fin 3) (mm : Fin 8192), x1 (ix3 (0 : Fin 1) d mm) = t (ix3 b mm d))
    (htn : ∀ mm : Fin 8192, tn (ix2 (0 : Fin 1) mm) = sq t b mm)
    (hacc : ∀ mm : Fin 8192, acc (ix2 (0 : Fin 1) mm) = (LibRunningMin.below 8192 (256 * k.val)).inf fun n => dist p t b n mm)
    (mm : Fin 8192) :
    k0_pay7 (F := Ideal) x0 x1 tn acc (ix2 (0 : Fin 1) mm)
      = (LibRunningMin.below 8192 (256 * (k.val + 1))).inf fun n => dist p t b n mm := by
  rw [runMin_apply, hacc]
  have hk : 256 * (k.val + 1) ≤ 8192 := by have := k.isLt; omega
  refine Eq.trans ?_ (LibRunningMin.min_inf_tile (N := 8192) (T := 256) (fun n => dist p t b n mm) k.val hk)
  refine congrArg (min _) (Finset.inf_congr rfl fun j _ => ?_)
  exact tile_spec p t b k x0 x1 tn hx0 hx1 htn j mm

end Cert.KernelIdeal.Step

end
-- ==== Proof.KernelBlocks.lean ====
/-
  The blocks a grid step is given, in terms of the two clouds.

  Before the grid runs, each cloud [4, 8192, 3] is transposed to [4, 3, 8192] (coordinate axis before point axis).
  The grid has 4 · 32 steps; step s works on batch s / 32 and tile s % 32.  Its first block is the [1, 3, 256]
  box of the transposed first cloud at (batch, 0, tile): entry (0, d, j) is p(batch, 256·tile + j, d).  Its second
  block is the [1, 3, 8192] box of the transposed second cloud at (batch, 0, 0): entry (0, d, m) is t(batch, m, d).
-/
import proofs.«151479_j3032246911459_2_alg».proof.Proof.Gen.KernelIdeal.Frame
import proofs.«151479_j3032246911459_2_alg».proof.Proof.KernelStep
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen Cert.Chamfer Cert.KernelIdeal.Step
open Idealize.ShloMosaic.Pipeline (Dat)

variable (m : (ℓ : Loc nD τ sig) → Buf (Elt Ideal) ℓ)

/-- The first cloud as launched. -/
abbrev P (c : Dev nD) : Pts.Idx → EReal := m ((c.tc : Thread nD τ).loc main_arg0)
/-- The second cloud as launched. -/
abbrev T (c : Dev nD) : Pts.Idx → EReal := m ((c.tc : Thread nD τ).loc main_arg1)

/-- Where each window's block sits at step s: batch s / 32 on the leading axis, the whole coordinate axis, and on
    the point axis tile s % 32 for the tiled windows, the whole axis for the others.  Decided over the grid. -/
theorem where_blocks : ∀ s : Fin cfg0.N,
    win0_0.index s (0 : Fin 3) = s.val / 32 ∧ win0_0.index s (1 : Fin 3) = 0 ∧ win0_0.index s (2 : Fin 3) = s.val % 32
    ∧ win0_1.index s (0 : Fin 3) = s.val / 32 ∧ win0_1.index s (1 : Fin 3) = 0 ∧ win0_1.index s (2 : Fin 3) = 0
    ∧ win0_2.index s (0 : Fin 3) = s.val / 32 ∧ win0_2.index s (1 : Fin 3) = 0 ∧ win0_2.index s (2 : Fin 3) = s.val % 32
    ∧ win0_3.index s (0 : Fin 3) = s.val / 32 ∧ win0_3.index s (1 : Fin 3) = 0 ∧ win0_3.index s (2 : Fin 3) = 0 :=
  (by decide +kernel : ∀ s : Fin grid0.N, _)

/-- The batch of step s. -/
def batch (s : Fin cfg0.N) : Fin 4 := ⟨s.val / 32, by have : s.val < 128 := lt_of_lt_of_eq s.isLt (show cfg0.N = 128 from N_0); omega⟩
/-- The tile of step s. -/
def tile (s : Fin cfg0.N) : Fin 32 := ⟨s.val % 32, Nat.mod_lt _ (by decide)⟩

/-- The transposed first cloud, as the grid finds it. -/
theorem predT_eq (c : Dev nD) :
    (V m c main_v0 : S4x3x8192.Idx → EReal) = transpose S4x3x8192 [0, 2, 1] (P m c) transposes_S4x8192x3_S4x3x8192_0_2_1 := by
  show StableHlo.after hostOps0 (fun b => m (c, b)) (Proc.devRef .tc main_v0) = _
  after_results

/-- The transposed second cloud, as the grid finds it. -/
theorem targT_eq (c : Dev nD) :
    (V m c main_v1 : S4x3x8192.Idx → EReal) = transpose S4x3x8192 [0, 2, 1] (T m c) transposes_S4x8192x3_S4x3x8192_0_2_1 := by
  show StableHlo.after hostOps0 (fun b => m (c, b)) (Proc.devRef .tc main_v1) = _
  after_results

/-- The first block of step s: its tile's points. -/
theorem predBlock (c : Dev nD) (s : Fin cfg0.N) (d : Fin 3) (j : Fin 256) :
    iblk m c 0 s (ix3 (0 : Fin 1) d j) = P m c (ix3 (batch s) (pt (tile s) j) d) := by
  obtain ⟨e0, e1, e2, -⟩ := where_blocks s
  have hN : s.val < 128 := lt_of_lt_of_eq s.isLt (show cfg0.N = 128 from N_0)
  have hb : iblk m c 0 s (ix3 (0 : Fin 1) d j) = V m c main_v0 (ix3 (batch s) d (pt (tile s) j)) := by
    show V m c main_v0 (((cfg0.win 0).blk s).view.emb (ix3 (0 : Fin 1) d j)) = V m c main_v0 _
    refine congrArg (V m c main_v0) (funext fun a => Fin.ext ?_)
    match a with
    | ⟨0, _⟩ => show win0_0.index s (0 : Fin 3) * 1 + 1 * 0 = s.val / 32; omega
    | ⟨1, _⟩ => show win0_0.index s (1 : Fin 3) * 3 + 1 * d.val = d.val; omega
    | ⟨2, _⟩ => show win0_0.index s (2 : Fin 3) * 256 + 1 * j.val = 256 * (s.val % 32) + j.val; omega
  rw [hb, predT_eq]
  exact transpose_ix3_021_apply (P m c) transposes_S4x8192x3_S4x3x8192_0_2_1 (batch s) d (pt (tile s) j)

/-- The second block of step s: its batch's whole second cloud. -/
theorem targBlock (c : Dev nD) (s : Fin cfg0.N) (d : Fin 3) (mm : Fin 8192) :
    iblk m c 1 s (ix3 (0 : Fin 1) d mm) = T m c (ix3 (batch s) mm d) := by
  obtain ⟨-, -, -, e0, e1, e2, -⟩ := where_blocks s
  have hN : s.val < 128 := lt_of_lt_of_eq s.isLt (show cfg0.N = 128 from N_0)
  have hb : iblk m c 1 s (ix3 (0 : Fin 1) d mm) = V m c main_v1 (ix3 (batch s) d mm) := by
    show V m c main_v1 (((cfg0.win 1).blk s).view.emb (ix3 (0 : Fin 1) d mm)) = V m c main_v1 _
    refine congrArg (V m c main_v1) (funext fun a => Fin.ext ?_)
    match a with
    | ⟨0, _⟩ => show win0_1.index s (0 : Fin 3) * 1 + 1 * 0 = s.val / 32; omega
    | ⟨1, _⟩ => show win0_1.index s (1 : Fin 3) * 3 + 1 * d.val = d.val; omega
    | ⟨2, _⟩ => show win0_1.index s (2 : Fin 3) * 8192 + 1 * mm.val = mm.val; omega
  rw [hb, targT_eq]
  exact transpose_ix3_021_apply (T m c) transposes_S4x8192x3_S4x3x8192_0_2_1 (batch s) d mm

end Cert.KernelIdeal.Blocks

end
-- ==== Proof.KernelInvariant.lean ====
/-
  What the outputs and the two carried rows hold after every grid step.

  Steps are numbered s = 32·b + k (batch b, tile k).  By induction along a batch's steps:
    • the carried row `tn` holds |t_{b,m}|² at m, from the batch's first step on;
    • the carried row `acc` holds, at m, the minimum of dist p t b n m over the points n of p below 256·(k + 1),
      that is over the tiles seen so far — started from +∞ (the minimum over no point) at the batch's first step,
      joined with the tile's own column minimum at every step;
    • the row written to the first output at step s holds, at j, the distance from p's point 256·k + j to its
      nearest point of t;
    • at a batch's last step (k = 31) `acc` ranges over all 8192 points of p, and the row handed to the second
      output holds, at m, the distance from t's point m to its nearest point of p.
-/
import proofs.«151479_j3032246911459_2_alg».proof.Proof.Gen.KernelIdeal.Frame
import proofs.«151479_j3032246911459_2_alg».proof.Proof.KernelPieces
import proofs.«151479_j3032246911459_2_alg».proof.Proof.KernelStep
import proofs.«151479_j3032246911459_2_alg».proof.Proof.KernelBlocks

noncomputable section

namespace Cert.KernelIdeal.Invariant

open Idealize.ShloMosaic Idealize.ShloMosaic.TcCoe Idealize.SL.Sem Idealize.ShloMosaic.ValueIdx
open Cert.KernelIdeal Cert.KernelIdeal.Gen Cert.Chamfer
open Cert.KernelIdeal.Step Cert.KernelIdeal.Blocks Cert.KernelIdeal.Pieces Cert.KernelIdeal.Payload

variable (m : (ℓ : Loc nD τ sig) → Buf (Elt Ideal) ℓ) (c : Dev nD)

/-! ## The case equations, as the body's arithmetic of the step's blocks and of what the step before left -/

/-- A batch's first step. -/
theorem first_eqs (s : Fin cfg0.N) (h0 : s.val % 32 = 0) :
    (outsAt0 m c s.val s.isLt).1 = k0_pay6 (iblk m c 0 s) (iblk m c 1 s) (k0_pay3 (iblk m c 1 s))
    ∧ (outsAt0 m c s.val s.isLt).2.2.1 = k0_pay7 (iblk m c 0 s) (iblk m c 1 s) (k0_pay3 (iblk m c 1 s)) (k0_pay4 (F := Ideal))
    ∧ (outsAt0 m c s.val s.isLt).2.2.2 = k0_pay3 (iblk m c 1 s) := by
  have h1 : ¬s.val % 32 = 31 := by omega
  rw [outsAt0_A m c s h0 h1]
  dsimp only
  exact ⟨first_out c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) _ _, first_acc c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) _ _, first_tn c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) _ _⟩

/-- A later step, over what the step before left in the two carried rows. -/
theorem next_eqs (s : Fin cfg0.N) (h0 : ¬s.val % 32 = 0) :
    (outsAt0 m c s.val s.isLt).1 = k0_pay6 (iblk m c 0 s) (iblk m c 1 s) (outsAt0 m c (s.val - 1) (Nat.lt_of_le_of_lt (Nat.sub_le _ _) s.isLt)).2.2.2
    ∧ (outsAt0 m c s.val s.isLt).2.2.1 = k0_pay7 (iblk m c 0 s) (iblk m c 1 s) (outsAt0 m c (s.val - 1) (Nat.lt_of_le_of_lt (Nat.sub_le _ _) s.isLt)).2.2.2 (outsAt0 m c (s.val - 1) (Nat.lt_of_le_of_lt (Nat.sub_le _ _) s.isLt)).2.2.1
    ∧ (outsAt0 m c s.val s.isLt).2.2.2 = (outsAt0 m c (s.val - 1) (Nat.lt_of_le_of_lt (Nat.sub_le _ _) s.isLt)).2.2.2 := by
  by_cases h1 : s.val % 32 = 31
  · rw [outsAt0_C m c s h0 h1]
    dsimp only
    exact ⟨last_out c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) (outsAt0 m c (s.val - 1) (Nat.lt_of_le_of_lt (Nat.sub_le _ _) s.isLt)).2.2.1 (outsAt0 m c (s.val - 1) (Nat.lt_of_le_of_lt (Nat.sub_le _ _) s.isLt)).2.2.2 _ _, last_acc c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) (outsAt0 m c (s.val - 1) (Nat.lt_of_le_of_lt (Nat.sub_le _ _) s.isLt)).2.2.1 (outsAt0 m c (s.val - 1) (Nat.lt_of_le_of_lt (Nat.sub_le _ _) s.isLt)).2.2.2 _ _, rfl⟩
  · rw [outsAt0_B m c s h0 h1]
    dsimp only
    exact ⟨middle_out c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) (outsAt0 m c (s.val - 1) (Nat.lt_of_le_of_lt (Nat.sub_le _ _) s.isLt)).2.2.1 (outsAt0 m c (s.val - 1) (Nat.lt_of_le_of_lt (Nat.sub_le _ _) s.isLt)).2.2.2 _ _, middle_acc c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) (outsAt0 m c (s.val - 1) (Nat.lt_of_le_of_lt (Nat.sub_le _ _) s.isLt)).2.2.1 (outsAt0 m c (s.val - 1) (Nat.lt_of_le_of_lt (Nat.sub_le _ _) s.isLt)).2.2.2 _ _, rfl⟩

/-- A batch's last step hands the new running minimum to the second output. -/
theorem last_eq (s : Fin cfg0.N) (h0 : ¬s.val % 32 = 0) (h1 : s.val % 32 = 31) :
    (outsAt0 m c s.val s.isLt).2.1 = k0_pay1 (k0_pay7 (iblk m c 0 s) (iblk m c 1 s) (outsAt0 m c (s.val - 1) (Nat.lt_of_le_of_lt (Nat.sub_le _ _) s.isLt)).2.2.2 (outsAt0 m c (s.val - 1) (Nat.lt_of_le_of_lt (Nat.sub_le _ _) s.isLt)).2.2.1) := by
  rw [outsAt0_C m c s h0 h1]
  dsimp only
  exact last_handed c (grid0.coords s) (ms0_0 s) (hs0_0 s) (ms0_1 s) (hs0_1 s) (ms0_2 s) (hs0_2 s) (ms0_3 s) (hs0_3 s) scM0_0 (Memref.isWhole_whole _) scM0_1 (Memref.isWhole_whole _) (iblk m c 0 s) (iblk m c 1 s) (outsAt0 m c (s.val - 1) (Nat.lt_of_le_of_lt (Nat.sub_le _ _) s.isLt)).2.2.1 (outsAt0 m c (s.val - 1) (Nat.lt_of_le_of_lt (Nat.sub_le _ _) s.isLt)).2.2.2 _ _

/-! ## The carried rows -/

/-- What the two carried rows hold after step n. -/
def Carried (n : ℕ) (h : n < cfg0.N) : Prop :=
  (∀ mm : Fin 8192, (outsAt0 m c n h).2.2.2 (ix2 (0 : Fin 1) mm) = Cert.Chamfer.sq (T m c) (batch ⟨n, h⟩) mm)
  ∧ ∀ mm : Fin 8192, (outsAt0 m c n h).2.2.1 (ix2 (0 : Fin 1) mm)
      = (LibRunningMin.below 8192 (256 * ((tile ⟨n, h⟩).val + 1))).inf fun nn => Cert.Chamfer.dist (P m c) (T m c) (batch ⟨n, h⟩) nn mm

theorem carried_first (s : Fin cfg0.N) (h0 : s.val % 32 = 0) : Carried m c s.val s.isLt := by
  obtain ⟨-, e1, e2⟩ := first_eqs m c s h0
  have hk : (tile s).val = 0 := h0
  have htn : ∀ mm : Fin 8192, k0_pay3 (F := Ideal) (iblk m c 1 s) (ix2 (0 : Fin 1) mm) = Cert.Chamfer.sq (T m c) (batch s) mm :=
    fun mm => tn_spec (T m c) (batch s) (iblk m c 1 s) (fun d mm => targBlock m c s d mm) mm
  refine ⟨fun mm => ?_, fun mm => ?_⟩
  · rw [e2]; exact htn mm
  · rw [e1]
    refine (runMin_spec (P m c) (T m c) (batch s) (tile s) (iblk m c 0 s) (iblk m c 1 s) (k0_pay3 (iblk m c 1 s)) (k0_pay4 (F := Ideal))
      (fun d j => predBlock m c s d j) (fun d mm => targBlock m c s d mm) htn (fun mm => ?_) mm)
    rw [topRow_apply, hk, Nat.mul_zero, LibRunningMin.inf_below_zero]

theorem carried_next (s : Fin cfg0.N) (h0 : ¬s.val % 32 = 0)
    (ih : Carried m c (s.val - 1) (Nat.lt_of_le_of_lt (Nat.sub_le _ _) s.isLt)) : Carried m c s.val s.isLt := by
  obtain ⟨-, e1, e2⟩ := next_eqs m c s h0
  obtain ⟨ih2, ih1⟩ := ih
  have hN : s.val < 128 := lt_of_lt_of_eq s.isLt (show cfg0.N = 128 from N_0)
  have hb : batch ⟨s.val - 1, Nat.lt_of_le_of_lt (Nat.sub_le _ _) s.isLt⟩ = batch s := Fin.ext (by show (s.val - 1) / 32 = s.val / 32; omega)
  have hk : (tile ⟨s.val - 1, Nat.lt_of_le_of_lt (Nat.sub_le _ _) s.isLt⟩).val + 1 = (tile s).val := by
    show (s.val - 1) % 32 + 1 = s.val % 32; omega
  rw [hb] at ih1 ih2
  rw [hk] at ih1
  refine ⟨fun mm => ?_, fun mm => ?_⟩
  · rw [e2]; exact ih2 mm
  · rw [e1]
    exact runMin_spec (P m c) (T m c) (batch s) (tile s) (iblk m c 0 s) (iblk m c 1 s) (outsAt0 m c (s.val - 1) (Nat.lt_of_le_of_lt (Nat.sub_le _ _) s.isLt)).2.2.2 (outsAt0 m c (s.val - 1) (Nat.lt_of_le_of_lt (Nat.sub_le _ _) s.isLt)).2.2.1
      (fun d j => predBlock m c s d j) (fun d mm => targBlock m c s d mm) ih2 ih1 mm

/-- Along the whole grid. -/
theorem carried : ∀ (n : ℕ) (h : n < cfg0.N), Carried m c n h := by
  intro n
  induction n with
  | zero => intro h; exact carried_first m c ⟨0, h⟩ rfl
  | succ n ih =>
    intro h
    by_cases h0 : (n + 1) % 32 = 0
    · exact carried_first m c ⟨n + 1, h⟩ h0
    · exact carried_next m c ⟨n + 1, h⟩ h0 (ih (Nat.lt_of_succ_lt h))

/-! ## The two outputs -/

/-- The row step s writes to the first output. -/
theorem firstOut (s : Fin cfg0.N) (j : Fin 256) :
    (outsAt0 m c s.val s.isLt).1 (ix3 (0 : Fin 1) (0 : Fin 1) j) = toTarget (P m c) (T m c) (batch s) (pt (tile s) j) := by
  by_cases h0 : s.val % 32 = 0
  · obtain ⟨e0, -, -⟩ := first_eqs m c s h0
    rw [e0]
    exact rowMin_spec (P m c) (T m c) (batch s) (tile s) (iblk m c 0 s) (iblk m c 1 s) (k0_pay3 (iblk m c 1 s))
      (fun d j => predBlock m c s d j) (fun d mm => targBlock m c s d mm)
      (fun mm => tn_spec (T m c) (batch s) (iblk m c 1 s) (fun d mm => targBlock m c s d mm) mm) j
  · obtain ⟨e0, -, -⟩ := next_eqs m c s h0
    obtain ⟨ih2, -⟩ := carried m c (s.val - 1) (Nat.lt_of_le_of_lt (Nat.sub_le _ _) s.isLt)
    have hN : s.val < 128 := lt_of_lt_of_eq s.isLt (show cfg0.N = 128 from N_0)
    have hb : batch ⟨s.val - 1, Nat.lt_of_le_of_lt (Nat.sub_le _ _) s.isLt⟩ = batch s := Fin.ext (by show (s.val - 1) / 32 = s.val / 32; omega)
    rw [hb] at ih2
    rw [e0]
    exact rowMin_spec (P m c) (T m c) (batch s) (tile s) (iblk m c 0 s) (iblk m c 1 s) (outsAt0 m c (s.val - 1) (Nat.lt_of_le_of_lt (Nat.sub_le _ _) s.isLt)).2.2.2
      (fun d j => predBlock m c s d j) (fun d mm => targBlock m c s d mm) ih2 j

/-- The row a batch's last step hands to the second output. -/
theorem secondOut (s : Fin cfg0.N) (h1 : s.val % 32 = 31) (mm : Fin 8192) :
    (outsAt0 m c s.val s.isLt).2.1 (ix3 (0 : Fin 1) (0 : Fin 1) mm) = toPred (P m c) (T m c) (batch s) mm := by
  have h0 : ¬s.val % 32 = 0 := by omega
  obtain ⟨-, e1, -⟩ := next_eqs m c s h0
  obtain ⟨-, hacc⟩ := carried m c s.val s.isLt
  rw [last_eq m c s h0 h1, outRow_apply, ← e1]
  have hk : 256 * ((tile s).val + 1) = 8192 := by show 256 * (s.val % 32 + 1) = 8192; omega
  refine (hacc mm).trans ?_
  rw [hk]
  exact LibRunningMin.inf_below_all (le_refl _) _

end Cert.KernelIdeal.Invariant

end
-- ==== Proof.KernelFinal.lean ====
/-
  The arrays after the grid has run, and the number the program returns.

  The first output array [4, 1, 8192] is tiled by the 128 steps' blocks [1, 1, 256]: step s writes block
  (s / 32, 0, s % 32), so the array ends holding, at (b, 0, n), the distance from p's point n of batch b to its
  nearest point of t.  The second output array [4, 1, 8192] is written once per batch, by the batch's last step,
  block (b, 0, 0) whole: it ends holding, at (b, 0, m), the distance from t's point m to its nearest point of p.
  After the grid both arrays are recast to [4, 8192], each is summed and divided by 32768, and the two means are
  added: the chamfer distance of the specification.
-/
import proofs.«151479_j3032246911459_2_alg».proof.Proof.KernelInvariant
import Idealize.ShloMosaic.Lib.Pipeline.Value
import Idealize.ShloMosaic.Lib.StableHlo.Run
import Idealize.ShloMosaic.Lib.Tactic

noncomputable section

namespace Cert.KernelIdeal.Final

open Idealize.ShloMosaic Idealize.ShloMosaic.TcCoe Idealize.SL.Sem Idealize.ShloMosaic.ValueIdx
open Cert.KernelIdeal Cert.KernelIdeal.Gen Cert.Chamfer
open Cert.KernelIdeal.Step Cert.KernelIdeal.Blocks Cert.KernelIdeal.Invariant
open Idealize.ShloMosaic.Pipeline (Dat)

variable (m : (ℓ : Loc nD τ sig) → Buf (Elt Ideal) ℓ) (ρ : Dev nD → PrngReg) (c : Dev nD)

/-- The first output array: nearest-target distances. -/
def nearT : S4x1x8192.Idx → EReal :=
  fun i => toTarget (P m c) (T m c) ⟨(i 0).val, (i 0).isLt⟩ ⟨(i 2).val, (i 2).isLt⟩

/-- The second output array: nearest-pred distances. -/
def nearP : S4x1x8192.Idx → EReal :=
  fun i => toPred (P m c) (T m c) ⟨(i 0).val, (i 0).isLt⟩ ⟨(i 2).val, (i 2).isLt⟩

/-- The row step s writes to the first output, at any index of the block. -/
theorem firstOut_at (s : Fin cfg0.N) (y : S1x1x256.Idx) :
    (outsAt0 m c s.val s.isLt).1 y = toTarget (P m c) (T m c) (batch s) (pt (tile s) ⟨(y 2).val, (y 2).isLt⟩) := by
  obtain ⟨u, v, j, rfl⟩ : ∃ (u : Fin 1) (v : Fin 1) (j : Fin 256), y = ix3 u v j := ⟨y 0, y 1, y 2, eq_ix3 y⟩
  obtain rfl : u = 0 := Subsingleton.elim _ _
  obtain rfl : v = 0 := Subsingleton.elim _ _
  exact firstOut m c s j

/-- The row a batch's last step hands to the second output, at any index of the block. -/
theorem secondOut_at (s : Fin cfg0.N) (h1 : s.val % 32 = 31) (y : S1x1x8192.Idx) :
    (outsAt0 m c s.val s.isLt).2.1 y = toPred (P m c) (T m c) (batch s) ⟨(y 2).val, (y 2).isLt⟩ := by
  obtain ⟨u, v, mm, rfl⟩ : ∃ (u : Fin 1) (v : Fin 1) (mm : Fin 8192), y = ix3 u v mm := ⟨y 0, y 1, y 2, eq_ix3 y⟩
  obtain rfl : u = 0 := Subsingleton.elim _ _
  obtain rfl : v = 0 := Subsingleton.elim _ _
  exact secondOut m c s h1 mm

/-! ## The first output array -/

/-- What step s writes back is its block of `nearT`. -/
theorem flushed_first (s : Fin cfg0.N) :
    (dats m 0 c).flushed 2 s = ((cfg0.win 2).blk s).view.read (Elt Ideal) (nearT m c) := by
  obtain ⟨-, -, -, -, -, -, e0, e1, e2, -⟩ := where_blocks s
  have hN : s.val < 128 := lt_of_lt_of_eq s.isLt (show cfg0.N = 128 from N_0)
  show (cfg0.win 2).cut (grid0.coords s) ((dats m 0 c).after 2 s) = _
  rw [after0_2]
  funext y
  show (outsAt0 m c s.val s.isLt).1 y = nearT m c (((cfg0.win 2).blk s).view.emb y)
  rw [firstOut_at]
  unfold nearT
  have h0 : (y 0).val < 1 := (y 0).isLt
  have h2 : (y 2).val < 256 := (y 2).isLt
  refine congrArg₂ (toTarget (P m c) (T m c)) (Fin.ext ?_) (Fin.ext ?_)
  · show s.val / 32 = win0_2.index s (0 : Fin 3) * 1 + 1 * (y 0).val; omega
  · show 256 * (s.val % 32) + (y 2).val = win0_2.index s (2 : Fin 3) * 256 + 1 * (y 2).val; omega

theorem mem_first (s : Fin cfg0.N) (i : S4x1x8192.Idx) :
    i ∈ ((cfg0.win 2).blk s).view.set ↔ ∀ a : Fin 3, win0_2.index s a * S1x1x256.size a ≤ (i a).val ∧ (i a).val < win0_2.index s a * S1x1x256.size a + S1x1x256.size a := by
  show i ∈ ((View.whole main_v2_0).slice (win0_2.rect s)).set ↔ _
  rw [View.set_slice_whole, Rect.mem_set_unit]
  exact Iff.rfl

/-- Every entry is in the block of the step of its batch and tile. -/
theorem cover_first (i : S4x1x8192.Idx) : ∃ s : Fin cfg0.N, (cfg0.win 2).flush s = true ∧ i ∈ ((cfg0.win 2).blk s).view.set := by
  have h0 : (i 0).val < 4 := (i 0).isLt
  have h1 : (i 1).val < 1 := (i 1).isLt
  have h2 : (i 2).val < 8192 := (i 2).isLt
  have hN : cfg0.N = 128 := N_0
  let s : Fin cfg0.N := ⟨32 * (i 0).val + (i 2).val / 256, by rw [hN]; omega⟩
  obtain ⟨-, -, -, -, -, -, e0, e1, e2, -⟩ := where_blocks s
  have hs : s.val = 32 * (i 0).val + (i 2).val / 256 := rfl
  refine ⟨s, flush0_2 s, ?_⟩
  rw [mem_first]
  intro a
  match a with
  | ⟨0, _⟩ => show win0_2.index s (0 : Fin 3) * 1 ≤ (i 0).val ∧ (i 0).val < win0_2.index s (0 : Fin 3) * 1 + 1; omega
  | ⟨1, _⟩ => show win0_2.index s (1 : Fin 3) * 1 ≤ (i 1).val ∧ (i 1).val < win0_2.index s (1 : Fin 3) * 1 + 1; omega
  | ⟨2, _⟩ => show win0_2.index s (2 : Fin 3) * 256 ≤ (i 2).val ∧ (i 2).val < win0_2.index s (2 : Fin 3) * 256 + 256; omega

/-- The first output array after the grid. -/
theorem final_first : (dats m 0 c).arrAt 2 cfg0.N = nearT m c :=
  (dats m 0 c).arrAt_eq_of_cover 2 (nearT m c) (fun s _ => flushed_first m c s) (cover_first)

/-! ## The second output array -/

/-- What a batch's last step writes back is its block of `nearP`. -/
theorem flushed_second (s : Fin cfg0.N) (hf : (cfg0.win 3).flush s = true) :
    (dats m 0 c).flushed 3 s = ((cfg0.win 3).blk s).view.read (Elt Ideal) (nearP m c) := by
  have h31 : s.val % 32 = 31 := (flush0_3 s).mp hf
  obtain ⟨-, -, -, -, -, -, -, -, -, e0, e1, e2⟩ := where_blocks s
  have hN : s.val < 128 := lt_of_lt_of_eq s.isLt (show cfg0.N = 128 from N_0)
  show (cfg0.win 3).cut (grid0.coords s) ((dats m 0 c).after 3 s) = _
  rw [after0_3]
  funext y
  show (outsAt0 m c s.val s.isLt).2.1 y = nearP m c (((cfg0.win 3).blk s).view.emb y)
  rw [secondOut_at m c s h31]
  unfold nearP
  have h0 : (y 0).val < 1 := (y 0).isLt
  have h2 : (y 2).val < 8192 := (y 2).isLt
  refine congrArg₂ (toPred (P m c) (T m c)) (Fin.ext ?_) (Fin.ext ?_)
  · show s.val / 32 = win0_3.index s (0 : Fin 3) * 1 + 1 * (y 0).val; omega
  · show (y 2).val = win0_3.index s (2 : Fin 3) * 8192 + 1 * (y 2).val; omega

theorem mem_second (s : Fin cfg0.N) (i : S4x1x8192.Idx) :
    i ∈ ((cfg0.win 3).blk s).view.set ↔ ∀ a : Fin 3, win0_3.index s a * S1x1x8192.size a ≤ (i a).val ∧ (i a).val < win0_3.index s a * S1x1x8192.size a + S1x1x8192.size a := by
  show i ∈ ((View.whole main_v2_1).slice (win0_3.rect s)).set ↔ _
  rw [View.set_slice_whole, Rect.mem_set_unit]
  exact Iff.rfl

/-- Every entry is in the block of its batch's last step. -/
theorem cover_second (i : S4x1x8192.Idx) : ∃ s : Fin cfg0.N, (cfg0.win 3).flush s = true ∧ i ∈ ((cfg0.win 3).blk s).view.set := by
  have h0 : (i 0).val < 4 := (i 0).isLt
  have h1 : (i 1).val < 1 := (i 1).isLt
  have h2 : (i 2).val < 8192 := (i 2).isLt
  have hN : cfg0.N = 128 := N_0
  let s : Fin cfg0.N := ⟨32 * (i 0).val + 31, by rw [hN]; omega⟩
  obtain ⟨-, -, -, -, -, -, -, -, -, e0, e1, e2⟩ := where_blocks s
  have hs : s.val = 32 * (i 0).val + 31 := rfl
  refine ⟨s, (flush0_3 s).mpr (by rw [hs]; omega), ?_⟩
  rw [mem_second]
  intro a
  match a with
  | ⟨0, _⟩ => show win0_3.index s (0 : Fin 3) * 1 ≤ (i 0).val ∧ (i 0).val < win0_3.index s (0 : Fin 3) * 1 + 1; omega
  | ⟨1, _⟩ => show win0_3.index s (1 : Fin 3) * 1 ≤ (i 1).val ∧ (i 1).val < win0_3.index s (1 : Fin 3) * 1 + 1; omega
  | ⟨2, _⟩ => show win0_3.index s (2 : Fin 3) * 8192 ≤ (i 2).val ∧ (i 2).val < win0_3.index s (2 : Fin 3) * 8192 + 8192; omega

/-- The second output array after the grid. -/
theorem final_second : (dats m 0 c).arrAt 3 cfg0.N = nearP m c :=
  (dats m 0 c).arrAt_eq_of_cover 3 (nearP m c) (flushed_second m c) (cover_second)

/-! ## The number returned -/

/-- An output array recast to [4, 8192] holds at (b, n) what it held at (b, 0, n). -/
theorem recast_first :
    (shapeCast S4x8192 (nearT m c) shapeCasts_S4x1x8192_S4x8192 : S4x8192.Idx → EReal) = rows (toTarget (P m c) (T m c)) := by
  funext q
  obtain ⟨b, n, rfl⟩ : ∃ (b : Fin 4) (n : Fin 8192), q = ix2 b n := ⟨q 0, q 1, eq_ix2 q⟩
  rw [rows_apply]
  refine (shapeCast_apply (nearT m c) shapeCasts_S4x1x8192_S4x8192 (ix2 b n) (ix3 b (0 : Fin 1) n) ?_).trans rfl
  rw [Shape.rowMajor_val_three, Shape.rowMajor_val_two]
  show (b.val * 1 + 0) * 8192 + n.val = b.val * 8192 + n.val
  omega

theorem recast_second :
    (shapeCast S4x8192 (nearP m c) shapeCasts_S4x1x8192_S4x8192 : S4x8192.Idx → EReal) = rows (toPred (P m c) (T m c)) := by
  funext q
  obtain ⟨b, n, rfl⟩ : ∃ (b : Fin 4) (n : Fin 8192), q = ix2 b n := ⟨q 0, q 1, eq_ix2 q⟩
  rw [rows_apply]
  refine (shapeCast_apply (nearP m c) shapeCasts_S4x1x8192_S4x8192 (ix2 b n) (ix3 b (0 : Fin 1) n) ?_).trans rfl
  rw [Shape.rowMajor_val_three, Shape.rowMajor_val_two]
  show (b.val * 1 + 0) * 8192 + n.val = b.val * 8192 + n.val
  omega

/-- The operations after the grid, applied to the two output arrays, give the specification's number. -/
theorem result_eq :
    Pipeline.afterTail₀ cfgs (dats m) 0 (V0 m) [hostOps1] c main_v9
      = chamfer (P m c) (T m c) reducesTo_S4x8192_S_d0_1 h_S_ := by
  have e2 : Pipeline.withArrays (cfgs 0).spec c (V0 m c) (fun w => (dats m 0 c).arrAt w (cfgs 0).N) (Proc.devRef .tc main_v2_0)
      = nearT m c := (Pipeline.withArrays_arr spec0 launch0.win.arr_inj c _ _ 2).trans (final_first m c)
  have e3 : Pipeline.withArrays (cfgs 0).spec c (V0 m c) (fun w => (dats m 0 c).arrAt w (cfgs 0).N) (Proc.devRef .tc main_v2_1)
      = nearP m c := (Pipeline.withArrays_arr spec0 launch0.win.arr_inj c _ _ 3).trans (final_second m c)
  unfold Pipeline.afterTail₀
  show StableHlo.after hostOps1 _ (Proc.devRef .tc main_v9) = _
  after_results
  rw [e2, e3]
  show meanPlusMean (shapeCast S4x8192 (nearT m c) shapeCasts_S4x1x8192_S4x8192)
      (shapeCast S4x8192 (nearP m c) shapeCasts_S4x1x8192_S4x8192) reducesTo_S4x8192_S_d0_1 h_S_ = _
  rw [recast_first, recast_second]
  rfl

/-- THE KERNEL'S RUN: every weakly fair execution ends with the result at the specification's number of the two
    clouds as launched, and the clouds unchanged. -/
theorem run : θ_run defs (onTc (τ := τ) (main (F := Ideal))) ⟨m, fun _ => 0, ρ⟩ fun r => ∀ c : Dev nD,
      r.2.mem ((c.tc : Thread nD τ).loc main_v9) = chamfer (P m c) (T m c) reducesTo_S4x8192_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Final

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.RefValue.lean ====
/-
  The reference computation read as mathematics.

  The reference forms, for batch b, point n of the first cloud (p) and point m of the second (t), the number
      ((0 + |p_{b,n}|²) + (0 + |t_{b,m}|²)) − 2 · ⟨p_{b,n}, t_{b,m}⟩
  (each squared length a sum over the three coordinates started from 0, the inner product a sum over the three
  coordinates, the factor 2 applied to the whole inner product): the array [4, 8192, 8192] of these numbers is
  `distRef`, entry by entry (`v12_apply`).  It then takes two minima of that array, each a fold of `min`
  started from +∞: over m (the last axis), giving for every (b, n) the distance from p's point n to the nearest
  point of t (`v13_apply`), and over n (the middle axis), giving for every (b, m) the distance from t's point m
  to the nearest point of p (`v14_apply`).  A fold of `min` from +∞ over an axis is the infimum over that
  axis's coordinates, in whatever order the fold visits them.  The result is the mean of the first array plus
  the mean of the second (`ref_result`).
-/
import proofs.«151479_j3032246911459_2_alg».proof.Proof.Gen.ReferenceIdeal.Read
import proofs.«151479_j3032246911459_2_alg».proof.Proof.Spec
import proofs.«151479_j3032246911459_2_alg».proof.Proof.LibRunningMin
import proofs.«151479_j3032246911459_2_alg».proof.Proof.LibFiniteEntries
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Chamfer

variable (p t : (⟨S4x8192x3, .f32⟩ : BufTy).Contents (Elt Ideal))

/-- The row index of p behind entry (b, n, m), coordinate d. -/
theorem idx_p (b : Fin 4) (n m : Fin 8192) (d : Fin 3) :
    Read.idx_main_v1 (Read.idx_main_v5 (Read.idx_main_v7 (ix3 b n m))) d = ix3 b n d :=
  funext fun a => Fin.ext (by match a with | ⟨0, _⟩ => rfl | ⟨1, _⟩ => rfl | ⟨2, _⟩ => rfl)

/-- The row index of t behind entry (b, n, m), coordinate d. -/
theorem idx_t (b : Fin 4) (n m : Fin 8192) (d : Fin 3) :
    Read.idx_main_v3 (Read.idx_main_v6 (Read.idx_main_v8 (ix3 b n m))) d = ix3 b m d :=
  funext fun a => Fin.ext (by match a with | ⟨0, _⟩ => rfl | ⟨1, _⟩ => rfl | ⟨2, _⟩ => rfl)

/-- The inner product's left factor at (b, n, m), coordinate d, is p's entry (b, n, d). -/
theorem lidx_p (b : Fin 4) (n m : Fin 8192) (d : Fin 3) :
    Read.lidx_main_v4 (ix3 b n m) d = ix3 b n d :=
  funext fun a => Fin.ext (by match a with | ⟨0, _⟩ => rfl | ⟨1, _⟩ => rfl | ⟨2, _⟩ => rfl)

/-- The inner product's right factor at (b, n, m), coordinate d, is t's entry (b, m, d). -/
theorem ridx_t (b : Fin 4) (n m : Fin 8192) (d : Fin 3) :
    Read.ridx_main_v4 (ix3 b n m) d = ix3 b m d :=
  funext fun a => Fin.ext (by match a with | ⟨0, _⟩ => rfl | ⟨1, _⟩ => rfl | ⟨2, _⟩ => rfl)

/-- THE EXPANDED SQUARED DISTANCE: the reference's array before the minima is `distRef`, entry by entry. -/
theorem v12_apply (b : Fin 4) (n m : Fin 8192) :
    Read.val_main_v12 (F := Ideal) p t (ix3 b n m) = distRef p t b n m := by
  rw [Read.val_main_v12_apply, Read.val_main_v9_apply, Read.val_main_v11_apply, Read.val_main_v7_apply,
    Read.val_main_v8_apply, Read.val_main_v5_apply, Read.val_main_v6_apply, Read.val_main_v1_apply,
    Read.val_main_v3_apply, Read.val_main_v10_apply, Read.val_main_v4_apply, Read.val_main_cst_apply,
    Read.val_main_cst_0_apply, Read.val_main_cst_1_apply]
  simp only [idx_p, idx_t, lidx_p, ridx_t, Read.val_main_v0_apply, Read.val_main_v2_apply, Ideal.mulf_def,
    Ideal.addf_def, Ideal.subf_def, Ideal.ofBits_def]
  rfl

/-- Dropping the last axis of [4, 8192, 8192] leaves [4, 8192]. -/
theorem reduces_d2 : S4x8192x8192.Reduces [2] S4x8192 := by decide
/-- Dropping the middle axis of [4, 8192, 8192] leaves [4, 8192]. -/
theorem reduces_d1 : S4x8192x8192.Reduces [1] S4x8192 := by decide

/-- The reduced index (b, n) with the last coordinate k put back is (b, n, k). -/
theorem lift_d2 (b : Fin 4) (n : Fin 8192) (k : Fin (S4x8192x8192.size 2)) :
    reduces_d2.lift (ix2 b n) k = ix3 b n (⟨k.val, k.isLt⟩ : Fin 8192) := by
  funext c; apply Fin.ext
  fin_cases c <;> rfl

/-- The reduced index (b, m) with the middle coordinate k put back is (b, k, m). -/
theorem lift_d1 (b : Fin 4) (m : Fin 8192) (k : Fin (S4x8192x8192.size 1)) :
    reduces_d1.lift (ix2 b m) k = ix3 b (⟨k.val, k.isLt⟩ : Fin 8192) m := by
  funext c; apply Fin.ext
  fin_cases c <;> rfl

/-- The minimum over the second cloud: from p's point n to the nearest point of t. -/
theorem v13_apply (b : Fin 4) (n : Fin 8192) :
    Read.val_main_v13 (F := Ideal) p t (ix2 b n) = Finset.univ.inf fun m : Fin 8192 => distRef p t b n m := by
  unfold Read.val_main_v13
  rw [Host.reduce_eq_fold_single FloatOps.minimumf _ _ reducesTo_S4x8192x8192_S4x8192_d2 reduces_d2 h_S_]
  rw [Read.val_main_cst_2_apply, Ideal.ofBits_def, Cert.LibFiniteEntries.top_f32]
  refine (LibRunningMin.fold_top_eq_inf (FloatOps.minimumf (F := Ideal) (φ := .f32)) (fun _ _ => rfl) Finset.univ _).trans ?_
  refine Finset.inf_congr rfl fun k _ => ?_
  show Read.val_main_v12 p t (reduces_d2.lift (ix2 b n) k) = _
  rw [lift_d2, v12_apply]
  rfl

/-- The minimum over the first cloud: from t's point m to the nearest point of p. -/
theorem v14_apply (b : Fin 4) (m : Fin 8192) :
    Read.val_main_v14 (F := Ideal) p t (ix2 b m) = Finset.univ.inf fun n : Fin 8192 => distRef p t b n m := by
  unfold Read.val_main_v14
  rw [Host.reduce_eq_fold_single FloatOps.minimumf _ _ reducesTo_S4x8192x8192_S4x8192_d1 reduces_d1 h_S_]
  rw [Read.val_main_cst_3_apply, Ideal.ofBits_def, Cert.LibFiniteEntries.top_f32]
  refine (LibRunningMin.fold_top_eq_inf (FloatOps.minimumf (F := Ideal) (φ := .f32)) (fun _ _ => rfl) Finset.univ _).trans ?_
  refine Finset.inf_congr rfl fun k _ => ?_
  show Read.val_main_v12 p t (reduces_d1.lift (ix2 b m) k) = _
  rw [lift_d1, v12_apply]
  rfl

/-- THE REFERENCE'S RESULT: the mean of the nearest-point distances one way plus the mean the other way. -/
theorem ref_result :
    Read.val_main_v19 (F := Ideal) p t
      = meanPlusMean (rows fun b n => Finset.univ.inf fun m : Fin 8192 => distRef p t b n m)
          (rows fun b m => Finset.univ.inf fun n : Fin 8192 => distRef p t b n m)
          reducesTo_S4x8192_S_d0_1 h_S_ := by
  have e13 : Read.val_main_v13 (F := Ideal) p t
      = rows fun b n => Finset.univ.inf fun m : Fin 8192 => distRef p t b n m := by
    funext q
    obtain ⟨b, n, rfl⟩ : ∃ (b : Fin 4) (n : Fin 8192), q = ix2 b n := ⟨q 0, q 1, eq_ix2 q⟩
    rw [rows_apply, v13_apply]
  have e14 : Read.val_main_v14 (F := Ideal) p t
      = rows fun b m => Finset.univ.inf fun n : Fin 8192 => distRef p t b n m := by
    funext q
    obtain ⟨b, m, rfl⟩ : ∃ (b : Fin 4) (m : Fin 8192), q = ix2 b m := ⟨q 0, q 1, eq_ix2 q⟩
    rw [rows_apply, v14_apply]
  rw [← e13, ← e14]
  rfl

end Cert.ReferenceIdeal.RefValue

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.Algebra.lean ====
/-
  The two arrangements of the expanded squared distance agree on real coordinates.

  For points  x, y  of ℝ³,   |x|² + |y|² − 2⟨x, y⟩   can be formed with the factor 2 applied to the whole inner
  product and each squared length started from 0,
        ((0 + |x|²) + (0 + |y|²)) − 2 · Σ_d x_d · y_d ,
  or with the factor −2 folded into the first point's coordinates before the inner product,
        (|x|² + |y|²) + Σ_d (x_d · (−2)) · y_d .
  In ℝ these are equal by the ring laws.  On the extended reals the ring laws fail at ±∞ (distributivity,
  and  a − b  against  a + (−b)·…  when an infinity meets its opposite), so the equality is proved where every
  coordinate of both clouds is (the coercion of) a real number: choose the real witnesses, move the coercion
  ℝ → EReal  outward through the products, sums and the difference, and conclude in ℝ.
  The three constants are the f32 words of 0, 2 and −2; what each denotes is computed here once.
-/
import proofs.«151479_j3032246911459_2_alg».proof.Proof.Spec
import proofs.«151479_j3032246911459_2_alg».proof.Proof.LibReal

noncomputable section

namespace Cert.Chamfer

open Idealize.ShloMosaic Idealize.ShloMosaic.ValueIdx

/-- The word of +0.0 denotes 0. -/
theorem cZero_eq : cZero = 0 := Ideal.ofBits_zero_f32

/-- The word 0xC0000000 (sign set, exponent 128, fraction 0) denotes −2. -/
theorem cNeg2_eq : cNeg2 = ((-2 : ℝ) : EReal) := by
  simp [Ideal.ofBits, Ideal.ieee, -EReal.coe_mul]; norm_num

/-- The word 0x40000000 (exponent 128, fraction 0) denotes 2. -/
theorem cTwo_eq : cTwo = ((2 : ℝ) : EReal) := by
  simp [Ideal.ofBits, Ideal.ieee, -EReal.coe_mul]; norm_num

/-- THE LAW: on clouds with real coordinates the two arrangements are the same number. -/
theorem distRef_eq_dist (p t : Pts.Idx → EReal) (hp : LibReal.AllReal p) (ht : LibReal.AllReal t)
    (b : Fin 4) (n m : Fin 8192) : distRef p t b n m = dist p t b n m := by
  obtain ⟨P, hP⟩ : ∃ P : Pts.Idx → ℝ, ∀ i, p i = (P i : EReal) :=
    ⟨fun i => (hp i).choose, fun i => (hp i).choose_spec⟩
  obtain ⟨T, hT⟩ : ∃ T : Pts.Idx → ℝ, ∀ i, t i = (T i : EReal) :=
    ⟨fun i => (ht i).choose, fun i => (ht i).choose_spec⟩
  unfold dist distRef sq
  rw [cZero_eq, cTwo_eq, cNeg2_eq]
  simp only [Fin.sum_univ_three, hP, hT]
  rw [← EReal.coe_zero]
  simp only [← EReal.coe_mul, ← EReal.coe_add, ← EReal.coe_sub]
  exact congrArg _ (by ring)

end Cert.Chamfer

end
-- ==== Proof.RefChamfer.lean ====
/-
  On real coordinates the reference computes the specified chamfer distance.

  The reference arranges the squared distance between p's point n and t's point m as
  ((0 + |p|²) + (0 + |t|²)) − 2 · ⟨p, t⟩;  the specification arranges it as  (|p|² + |t|²) + ⟨(−2) · p, t⟩.
  Where every coordinate of both clouds is a real number the two arrangements are the same number, entry by
  entry.  Hence the minimum over the second cloud (for each point of the first) and the minimum over the first
  cloud (for each point of the second) are the same in both, and so are the two means and their sum: the
  reference's result is the specification's.
-/
import proofs.«151479_j3032246911459_2_alg».proof.Proof.RefValue
import proofs.«151479_j3032246911459_2_alg».proof.Proof.Algebra
import proofs.«151479_j3032246911459_2_alg».proof.Proof.LibReal
import proofs.«151479_j3032246911459_2_alg».proof.Proof.Spec

noncomputable section

namespace Cert.ReferenceIdeal.RefValue

open Cert.ReferenceIdeal Cert.ReferenceIdeal.Gen Idealize.ShloMosaic Idealize.ShloMosaic.ValueIdx Cert.Chamfer

/-- THE REFERENCE IS THE SPECIFICATION on clouds with real coordinates. -/
theorem ref_chamfer (p t : (⟨S4x8192x3, .f32⟩ : BufTy).Contents (Elt Ideal))
    (hp : LibReal.AllReal p) (ht : LibReal.AllReal t) :
    Read.val_main_v19 (F := Ideal) p t = Cert.Chamfer.chamfer p t reducesTo_S4x8192_S_d0_1 h_S_ := by
  rw [ref_result]
  unfold Cert.Chamfer.chamfer Cert.Chamfer.toTarget Cert.Chamfer.toPred
  have e1 : (fun (b : Fin 4) (n : Fin 8192) => Finset.univ.inf fun m : Fin 8192 => distRef p t b n m)
      = fun b n => Finset.univ.inf fun m : Fin 8192 => Cert.Chamfer.dist p t b n m :=
    funext fun b => funext fun n => Finset.inf_congr rfl fun m _ => distRef_eq_dist p t hp ht b n m
  have e2 : (fun (b : Fin 4) (m : Fin 8192) => Finset.univ.inf fun n : Fin 8192 => distRef p t b n m)
      = fun b m => Finset.univ.inf fun n : Fin 8192 => Cert.Chamfer.dist p t b n m :=
    funext fun b => funext fun m => Finset.inf_congr rfl fun n _ => distRef_eq_dist p t hp ht b n m
  rw [e1, e2]

end Cert.ReferenceIdeal.RefValue

end
-- ==== Proof.Finite.lean ====
/-
  The finiteness precondition read back.

  The precondition on the two clouds is the conjunction of two tests, one per cloud, each of the form
  all(|v| < +∞):  the comparisons  |v_i| < +∞  reduced by `and` over every axis into a single bit.  If the
  conjunction is 1 then each test is 1; a reduction by `and` that came out 1 met a 1 at every index; and an
  extended real whose absolute value is strictly below +∞ is neither −∞ nor +∞, hence a real number.
  So under the precondition every coordinate of both clouds is (the coercion of) a real number, which is the
  hypothesis under which the ring laws hold entry by entry.
-/
import proofs.«151479_j3032246911459_2_alg».proof.Pre_finite_inputs
import proofs.«151479_j3032246911459_2_alg».proof.Proof.LibFiniteEntries
import proofs.«151479_j3032246911459_2_alg».proof.Proof.LibReal
import Idealize.ShloMosaic.Lib.Affine
import Idealize.ShloMosaic.Lib.ValueIdx

noncomputable section

namespace Cert.Chamfer

open Idealize.ShloMosaic

/-- Under the precondition, every coordinate of both clouds is a real number. -/
theorem allReal_of_pre [Cert.Pre_finite_inputs.Facts]
    (x y : FVec Ideal Cert.Pre_finite_inputs.S4x8192x3 .f32)
    (h : Cert.Pre_finite_inputs.fn (F := Ideal) x y = fun _ => 1#1) :
    LibReal.AllReal x ∧ LibReal.AllReal y := by
  have h0 := congrFun h ValueIdx.ix0
  dsimp only [Cert.Pre_finite_inputs.fn] at h0
  obtain ⟨hx, hy⟩ := IntOp.andi_eq_one.1 h0
  exact ⟨fun i => Cert.LibFiniteEntries.real_of_all x _ _ _ _ ValueIdx.ix0 hx i,
    fun i => Cert.LibFiniteEntries.real_of_all y _ _ _ _ ValueIdx.ix0 hy i⟩

end Cert.Chamfer

end
-- ==== Proof.lean ====
/-
  The kernel and its reference compute the same chamfer distance.

  Both programs take two clouds p, t of 8192 points of ℝ³ in four batches and return one number: the mean over
  (batch, point of p) of the squared distance to the nearest point of t, plus the mean over (batch, point of t) of
  the squared distance to the nearest point of p, every squared distance expanded as |p|² + |t|² − 2⟨p, t⟩.

  The kernel walks a grid of 4 · 32 steps over the transposed clouds.  Each step forms the 256 × 8192 tile of
  distances of one tile of p against the batch's whole t, with the factor −2 folded into p's coordinates before
  the inner product; it writes the tile's row minima straight to the first output, and keeps a running minimum of
  the column minima across the batch's 32 steps (started from +∞ at the first, handed to the second output at the
  last), beside the row of |t|² computed once per batch.  After the grid the two outputs are averaged and added.
  The reference forms the whole 8192 × 8192 table per batch with the factor 2 applied to the inner product, and
  takes both minima over whole axes.

  Over the extended reals with exact operations the two results are one function of the clouds:
    • a running minimum over tiles, started from +∞, is the minimum over the whole axis (minima commute and
      associate, with no hypothesis);
    • the two arrangements of the squared distance agree where all coordinates are real numbers — moving the
      factor across the three-term sum is distributivity, which fails at infinite coordinates, so this is where the
      precondition that every input is finite is used;
    • the averaging is the same operations on both sides.
  The frames of the two kernel programs are the generated ones; the reference's frame is its generated run; the
  idealization rewrote nothing.
-/
import proofs.«151479_j3032246911459_2_alg».proof.Defs
import proofs.«151479_j3032246911459_2_alg».proof.Proof.Gen.Kernel
import proofs.«151479_j3032246911459_2_alg».proof.Proof.Gen.Kernel.Skeleton
import proofs.«151479_j3032246911459_2_alg».proof.Proof.Gen.Kernel.Launch
import proofs.«151479_j3032246911459_2_alg».proof.Proof.Gen.Kernel.Points
import proofs.«151479_j3032246911459_2_alg».proof.Proof.Gen.Kernel.Frame
import proofs.«151479_j3032246911459_2_alg».proof.Proof.Gen.KernelIdeal
import proofs.«151479_j3032246911459_2_alg».proof.Proof.Gen.KernelIdeal.Skeleton
import proofs.«151479_j3032246911459_2_alg».proof.Proof.Gen.KernelIdeal.Launch
import proofs.«151479_j3032246911459_2_alg».proof.Proof.Gen.KernelIdeal.Points
import proofs.«151479_j3032246911459_2_alg».proof.Proof.Gen.KernelIdeal.Frame
import proofs.«151479_j3032246911459_2_alg».proof.Proof.Gen.ReferenceIdeal
import proofs.«151479_j3032246911459_2_alg».proof.Proof.Gen.ReferenceIdeal.Run
import proofs.«151479_j3032246911459_2_alg».proof.Proof.Gen.ReferenceIdeal.Read
import proofs.«151479_j3032246911459_2_alg».proof.Proof.Gen.Pre_finite_inputs
import proofs.«151479_j3032246911459_2_alg».proof.Proof.KernelFinal
import proofs.«151479_j3032246911459_2_alg».proof.Proof.RefChamfer
import proofs.«151479_j3032246911459_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the chamfer distance of the clouds the kernel was launched with: the kernel by
    its run read through the grid; the reference, on clouds that agree with the kernel's and are finite, because
    its arrangement of the squared distance is then the other one. -/
theorem algebraic : Cert.algebraic_KernelIdeal_ReferenceIdeal := by
  intro m ρ m' ρ' hpre hagree
  refine ⟨fun c => Cert.Chamfer.chamfer (Cert.KernelIdeal.Blocks.P m c) (Cert.KernelIdeal.Blocks.T m c)
      Cert.KernelIdeal.Facts₀.reducesTo_S4x8192_S_d0_1 Cert.KernelIdeal.Facts₀.h_S_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hp, ht⟩ := Cert.Chamfer.allReal_of_pre _ _ (hpre c)
  rw [Cert.ReferenceIdeal.Read.val_main_v19_eq, (hagree c).1, (hagree c).2]
  exact Cert.ReferenceIdeal.RefValue.ref_chamfer _ _ hp ht

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
